-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x128 : Shape := ⟨3, ![8, 16384, 128]⟩
abbrev S8x16384 : Shape := ⟨2, ![8, 16384]⟩
abbrev S_ : Shape := ⟨0, ![]⟩

class Facts : Prop where
  bcast_S_S8x16384x128 : S_.BroadcastsInDim S8x16384x128 (![] : Fin 0 → Fin S8x16384x128.rank)
  reducesTo_S8x16384x128_S_d0_1_2 : S8x16384x128.ReducesTo [0, 1, 2] S_
  h_S_ : 0 < S_.numel
  bcast_S_S8x16384 : S_.BroadcastsInDim S8x16384 (![] : Fin 0 → Fin S8x16384.rank)
  reducesTo_S8x16384_S_d0_1 : S8x16384.ReducesTo [0, 1] S_

variable [Facts]

def fn_part1 {F : FTy → Type} [FloatOps F] (main_v13 : IVec S_ 1) (main_v16 : IVec S8x16384 1) : IVec S_ 1 :=
  let main_c_5 : IVec S_ 1 := constantI S_ 1 1#1
  let main_v17 : IVec S_ 1 := (fun x v => Host.reduce IntOp.andi x v reducesTo_S8x16384_S_d0_1 h_S_) main_v16 main_c_5
  let main_v18 : IVec S_ 1 := andi main_v13 main_v17
  main_v18

def fn {F : FTy → Type} [FloatOps F] (main_arg0 : FVec F S8x16384x128 .f32) (main_arg1 : FVec F S8x16384x128 .f32) (main_arg2 : FVec F S8x16384x128 .f32) (main_arg3 : FVec F S8x16384 .f32) : IVec S_ 1 :=
  let main_v0 : FVec F S8x16384x128 .f32 := Host.absf main_arg0
  let main_cst : FVec F S_ .f32 := constant S_ .f32 0x7F800000#32
  let main_v1 : FVec F S8x16384x128 .f32 := broadcastInDim S8x16384x128 ![] bcast_S_S8x16384x128 main_cst
  let main_v2 : IVec S8x16384x128 1 := cmpf .olt main_v0 main_v1
  let main_c : IVec S_ 1 := constantI S_ 1 1#1
  let main_v3 : IVec S_ 1 := (fun x v => Host.reduce IntOp.andi x v reducesTo_S8x16384x128_S_d0_1_2 h_S_) main_v2 main_c
  let main_v4 : FVec F S8x16384x128 .f32 := Host.absf main_arg1
  let main_cst_0 : FVec F S_ .f32 := constant S_ .f32 0x7F800000#32
  let main_v5 : FVec F S8x16384x128 .f32 := broadcastInDim S8x16384x128 ![] bcast_S_S8x16384x128 main_cst_0
  let main_v6 : IVec S8x16384x128 1 := cmpf .olt main_v4 main_v5
  let main_c_1 : IVec S_ 1 := constantI S_ 1 1#1
  let main_v7 : IVec S_ 1 := (fun x v => Host.reduce IntOp.andi x v reducesTo_S8x16384x128_S_d0_1_2 h_S_) main_v6 main_c_1
  let main_v8 : IVec S_ 1 := andi main_v3 main_v7
  let main_v9 : FVec F S8x16384x128 .f32 := Host.absf main_arg2
  let main_cst_2 : FVec F S_ .f32 := constant S_ .f32 0x7F800000#32
  let main_v10 : FVec F S8x16384x128 .f32 := broadcastInDim S8x16384x128 ![] bcast_S_S8x16384x128 main_cst_2
  let main_v11 : IVec S8x16384x128 1 := cmpf .olt main_v9 main_v10
  let main_c_3 : IVec S_ 1 := constantI S_ 1 1#1
  let main_v12 : IVec S_ 1 := (fun x v => Host.reduce IntOp.andi x v reducesTo_S8x16384x128_S_d0_1_2 h_S_) main_v11 main_c_3
  let main_v13 : IVec S_ 1 := andi main_v8 main_v12
  let main_v14 : FVec F S8x16384 .f32 := Host.absf main_arg3
  let main_cst_4 : FVec F S_ .f32 := constant S_ .f32 0x7F800000#32
  let main_v15 : FVec F S8x16384 .f32 := broadcastInDim S8x16384 ![] bcast_S_S8x16384 main_cst_4
  let main_v16 : IVec S8x16384 1 := cmpf .olt main_v14 main_v15
  fn_part1 (F := F) main_v13 main_v16
-- ==== Kernel.lean ====
abbrev S8x16384x128 : Shape := ⟨3, ![8, 16384, 128]⟩
abbrev S8x16384 : Shape := ⟨2, ![8, 16384]⟩
abbrev S8x256x128 : Shape := ⟨3, ![8, 256, 128]⟩
abbrev S1x4096x128 : Shape := ⟨3, ![1, 4096, 128]⟩
abbrev S1x64x128 : Shape := ⟨3, ![1, 64, 128]⟩
abbrev S4096x128 : Shape := ⟨2, ![4096, 128]⟩
abbrev S64x64x128 : Shape := ⟨3, ![64, 64, 128]⟩
abbrev S64x128 : Shape := ⟨2, ![64, 128]⟩
abbrev S8x16384x1 : Shape := ⟨3, ![8, 16384, 1]⟩
abbrev S1x2048x128 : Shape := ⟨3, ![1, 2048, 128]⟩
abbrev S1x256x128 : Shape := ⟨3, ![1, 256, 128]⟩
abbrev S1x2048x1 : Shape := ⟨3, ![1, 2048, 1]⟩
abbrev S2048x128 : Shape := ⟨2, ![2048, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 8
  | .vmem => 18
  | .smem => 0
  | _ => 0

abbrev bufTy : (tb : Table) → Fin (tcTables nBuf tb) → BufTy
  | .hbm, ⟨0, _⟩ => ⟨S8x16384x128, .f32⟩
  | .hbm, ⟨1, _⟩ => ⟨S8x16384x128, .f32⟩
  | .hbm, ⟨2, _⟩ => ⟨S8x16384x128, .f32⟩
  | .hbm, ⟨3, _⟩ => ⟨S8x16384, .f32⟩
  | .hbm, ⟨4, _⟩ => ⟨S8x256x128, .f32⟩
  | .hbm, ⟨5, _⟩ => ⟨S8x256x128, .f32⟩
  | .hbm, ⟨6, _⟩ => ⟨S8x16384x1, .f32⟩
  | .hbm, ⟨7, _⟩ => ⟨S8x16384x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x2048x128, .f32⟩
  | .local _ .vmem, ⟨9, _⟩ => ⟨S1x2048x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x2048x1, .f32⟩
  | .local _ .vmem, ⟨15, _⟩ => ⟨S1x2048x1, .f32⟩
  | .local _ .vmem, ⟨16, _⟩ => ⟨S1x2048x128, .f32⟩
  | .local _ .vmem, ⟨17, _⟩ => ⟨S1x2048x128, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S64x64x128 : S4096x128.ShapeCasts S64x64x128
  reduces_S64x64x128_S64x128 : S64x64x128.Reduces [1] S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  shapeCasts_S8x16384_S8x16384x1 : S8x16384.ShapeCasts S8x16384x1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  reduces_S2048x256_S2048 : S2048x256.Reduces [1] S2048
  shapeCasts_S2048_S2048x1 : S2048.ShapeCasts S2048x1
  broadcasts_S2048x1_S2048x256 : S2048x1.Broadcasts S2048x256
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x128 : S2048x1.Broadcasts S2048x128
  shapeCasts_S2048x128_S1x2048x128 : S2048x128.ShapeCasts S1x2048x128
  dot_S2048x128_S256x128_S2048x256_1_1_0_0_n_n_wf : DotDims.WF S2048x128 S256x128 S2048x256 [1] [1] [0] [0] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S8x16384x128.size a
  hwx0_0 : ∀ i : grid0.Coords, EltTy.bits .f32 = 32 ∨ (Rect.block (s := S8x16384x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S8x16384x128.size a
  hwx0_1 : ∀ i : grid0.Coords, EltTy.bits .f32 = 32 ∨ (Rect.block (s := S8x16384x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S8x256x128.size a
  hwx0_2 : ∀ i : grid0.Coords, EltTy.bits .f32 = 32 ∨ (Rect.block (s := S8x256x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128.size a ≤ S8x256x128.size a
  hwx0_3 : ∀ i : grid0.Coords, EltTy.bits .f32 = 32 ∨ (Rect.block (s := S8x256x128) S1x64x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x128.size a ≤ S8x16384x128.size a
  hwx1_0 : ∀ i : grid1.Coords, EltTy.bits .f32 = 32 ∨ (Rect.block (s := S8x16384x128) S1x2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x128.size a ≤ S8x256x128.size a
  hwx1_1 : ∀ i : grid1.Coords, EltTy.bits .f32 = 32 ∨ (Rect.block (s := S8x256x128) S1x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S8x256x128.size a
  hwx1_2 : ∀ i : grid1.Coords, EltTy.bits .f32 = 32 ∨ (Rect.block (s := S8x256x128) S1x256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1.size a ≤ S8x16384x1.size a
  hwx1_3 : ∀ i : grid1.Coords, EltTy.bits .f32 = 32 ∨ (Rect.block (s := S8x16384x1) S1x2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x128.size a ≤ S8x16384x128.size a
  hwx1_4 : ∀ i : grid1.Coords, EltTy.bits .f32 = 32 ∨ (Rect.block (s := S8x16384x128) S1x2048x128.size (cc1_transform_4 i) (hinb1_4 i)).WholeWords (EltTy.packing .f32)

variable [Facts₀]

def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg1) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x16384x128 : Shape := ⟨3, ![8, 16384, 128]⟩
abbrev S8x16384 : Shape := ⟨2, ![8, 16384]⟩
abbrev S8x256x64x128 : Shape := ⟨4, ![8, 256, 64, 128]⟩
abbrev S_ : Shape := ⟨0, ![]⟩
abbrev S8x256x128 : Shape := ⟨3, ![8, 256, 128]⟩
abbrev S8x16384x256 : Shape := ⟨3, ![8, 16384, 256]⟩
abbrev S8x16384x1 : Shape := ⟨3, ![8, 16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S8x16384x128, .f32⟩
  | .hbm, ⟨2, _⟩ => ⟨S8x16384x128, .f32⟩
  | .hbm, ⟨3, _⟩ => ⟨S8x16384, .f32⟩
  | .hbm, ⟨4, _⟩ => ⟨S8x256x64x128, .f32⟩
  | .hbm, ⟨5, _⟩ => ⟨S_, .f32⟩
  | .hbm, ⟨6, _⟩ => ⟨S8x256x128, .f32⟩
  | .hbm, ⟨7, _⟩ => ⟨S_, .f32⟩
  | .hbm, ⟨8, _⟩ => ⟨S8x256x128, .f32⟩
  | .hbm, ⟨9, _⟩ => ⟨S8x256x128, .f32⟩
  | .hbm, ⟨10, _⟩ => ⟨S8x256x64x128, .f32⟩
  | .hbm, ⟨11, _⟩ => ⟨S_, .f32⟩
  | .hbm, ⟨12, _⟩ => ⟨S8x256x128, .f32⟩
  | .hbm, ⟨13, _⟩ => ⟨S_, .f32⟩
  | .hbm, ⟨14, _⟩ => ⟨S8x256x128, .f32⟩
  | .hbm, ⟨15, _⟩ => ⟨S8x256x128, .f32⟩
  | .hbm, ⟨16, _⟩ => ⟨S8x16384x256, .f32⟩
  | .hbm, ⟨17, _⟩ => ⟨S_, .f32⟩
  | .hbm, ⟨18, _⟩ => ⟨S8x16384x256, .f32⟩
  | .hbm, ⟨19, _⟩ => ⟨S8x16384x256, .f32⟩
  | .hbm, ⟨20, _⟩ => ⟨S_, .f32⟩
  | .hbm, ⟨21, _⟩ => ⟨S8x16384, .f32⟩
  | .hbm, ⟨22, _⟩ => ⟨S_, .f32⟩
  | .hbm, ⟨23, _⟩ => ⟨S8x16384, .f32⟩
  | .hbm, ⟨24, _⟩ => ⟨S8x16384, .f32⟩
  | .hbm, ⟨25, _⟩ => ⟨S8x16384x1, .f32⟩
  | .hbm, ⟨26, _⟩ => ⟨S8x16384x256, .f32⟩
  | .hbm, ⟨27, _⟩ => ⟨S8x16384x256, .f32⟩
  | .hbm, ⟨28, _⟩ => ⟨S8x16384x256, .f32⟩
  | .hbm, ⟨29, _⟩ => ⟨S_, .f32⟩
  | .hbm, ⟨30, _⟩ => ⟨S8x16384, .f32⟩
  | .hbm, ⟨31, _⟩ => ⟨S8x16384x1, .f32⟩
  | .hbm, ⟨32, _⟩ => ⟨S8x16384x256, .f32⟩
  | .hbm, ⟨33, _⟩ => ⟨S8x16384x256, .f32⟩
  | .hbm, ⟨34, _⟩ => ⟨S8x16384x128, .f32⟩
  | .hbm, ⟨35, _⟩ => ⟨S8x16384x1, .f32⟩
  | .hbm, ⟨36, _⟩ => ⟨S8x16384x128, .f32⟩
  | .hbm, ⟨37, _⟩ => ⟨S8x16384x128, .f32⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  shapeCasts_S8x16384x128_S8x256x64x128 : S8x16384x128.ShapeCasts S8x256x64x128
  reducesTo_S8x256x64x128_S8x256x128_d2 : S8x256x64x128.ReducesTo [2] S8x256x128
  h_S_ : 0 < S_.numel
  bcast_S_S8x256x128 : S_.BroadcastsInDim S8x256x128 (![] : Fin 0 → Fin S8x256x128.rank)
  bcast_S_S8x16384x256 : S_.BroadcastsInDim S8x16384x256 (![] : Fin 0 → Fin S8x16384x256.rank)
  reducesTo_S8x16384x256_S8x16384_d2 : S8x16384x256.ReducesTo [2] S8x16384
  bcast_S_S8x16384 : S_.BroadcastsInDim S8x16384 (![] : Fin 0 → Fin S8x16384.rank)
  bcast_S8x16384_S8x16384x1_0_1 : S8x16384.BroadcastsInDim S8x16384x1 (![0, 1] : Fin 2 → Fin S8x16384x1.rank)
  bcast_S8x16384x1_S8x16384x256_0_1_2 : S8x16384x1.BroadcastsInDim S8x16384x256 (![0, 1, 2] : Fin 3 → Fin S8x16384x256.rank)
  bcast_S8x16384x1_S8x16384x128_0_1_2 : S8x16384x1.BroadcastsInDim S8x16384x128 (![0, 1, 2] : Fin 3 → Fin S8x16384x128.rank)
  dot_S8x16384x128_S8x256x128_S8x16384x256_2_2_1_1_0_0_wf : DotDims.WF S8x16384x128 S8x256x128 S8x16384x256 [2] [2] [1] [1] [0] [0]
  dot_S8x16384x256_S8x256x128_S8x16384x128_2_1_1_2_0_0_wf : DotDims.WF S8x16384x256 S8x256x128 S8x16384x128 [2] [1] [1] [2] [0] [0]

variable [Facts₀]

def dot_S8x16384x128_S8x256x128_S8x16384x256_2_2_1_1_0_0 : DotDims S8x16384x128 S8x256x128 S8x16384x256 where
  lhsContracting := [2]
  rhsContracting := [2]
  lhsNonContracting := [1]
  rhsNonContracting := [1]
  lhsBatch := [0]
  rhsBatch := [0]
  wf := dot_S8x16384x128_S8x256x128_S8x16384x256_2_2_1_1_0_0_wf
def dot_S8x16384x256_S8x256x128_S8x16384x128_2_1_1_2_0_0 : DotDims S8x16384x256 S8x256x128 S8x16384x128 where
  lhsContracting := [2]
  rhsContracting := [1]
  lhsNonContracting := [1]
  rhsNonContracting := [2]
  lhsBatch := [0]
  rhsBatch := [0]
  wf := dot_S8x16384x256_S8x256x128_S8x16384x128_2_1_1_2_0_0_wf

class Facts : Prop extends Facts₀ where

variable [Facts]
-- ==== Proof.PooledAttention.lean ====
/-
  Gated attention over block-mean-pooled keys and values, as ONE function of the four argument arrays, index by index
  on the extended reals.

  Arrays: queries, keys, values of extents [8, 16384, 128] (batch, row, feature) and a gate of extents [8, 16384].
  * Pooling: the 16384 rows of a batch are cut into 256 consecutive blocks of 64; entry (b, n, d) of a pooled array is the
    sum of the 64 entries (b, 64·n + r, d), r < 64, divided by 64.
  * Scores: s(b, t, n) = (∑ d, q(b, t, d) · pooledKeys(b, n, d)) · c, with c the one scaling constant both programs carry.
  * Weights: along n, w(n) = exp(s(n) − M) / ∑ n', exp(s(n') − M), where M is the maximum of the row of scores, folded from −∞.
  * Output: o(b, t, d) = (∑ n, w(b, t, n) · pooledValues(b, n, d)) · gate(b, t).

  Every operation is the exact one on the extended reals; the three float constants are kept as the words both programs
  print (64, the scale, −∞), never evaluated. Nothing here mentions a program.
-/
import Idealize.ShloMosaic.PureOps.Ideal
import Idealize.ShloMosaic.Lib.ValueIdx

noncomputable section

open scoped BigOperators

namespace Cert.PooledAttention

open Idealize.ShloMosaic Idealize.ShloMosaic.ValueIdx

/-- Row `64·n + r` of a batch: row `r` of pooling block `n`. -/
def blockRow (n : Fin 256) (r : Fin 64) : Fin 16384 := ⟨64 * n.val + r.val, by have := n.isLt; have := r.isLt; omega⟩

/-- The divisor of the block mean, as the word both programs print (64.0). -/
abbrev c64 : EReal := Ideal.ofBits .f32 0x42800000#32
/-- The score scale, as the word both programs print. -/
abbrev cScale : EReal := Ideal.ofBits .f32 0x3DB504F3#32
/-- The value the row maximum is folded from, as the word both programs print (−∞). -/
abbrev cNegInf : EReal := Ideal.ofBits .f32 0xFF800000#32

/-- Entry (b, n, d) of the block mean of `x`: the sum over the 64 rows of block `n`, divided by 64. -/
def pool (x : (⟨3, ![8, 16384, 128]⟩ : Shape).Idx → EReal) (b : Fin 8) (n : Fin 256) (d : Fin 128) : EReal :=
  Ideal.div (∑ r : Fin 64, x (ix3 b (blockRow n r) d)) c64

/-- The block mean as an array of extents [8, 256, 128]. -/
def pooled (x : (⟨3, ![8, 16384, 128]⟩ : Shape).Idx → EReal) : (⟨3, ![8, 256, 128]⟩ : Shape).Idx → EReal :=
  fun j => pool x (j 0) (j 1) (j 2)

/-- The maximum of a row of 256 scores, folded from −∞. -/
def rowMax (s : Fin 256 → EReal) : EReal := (Finset.univ : Finset (Fin 256)).fold max cNegInf s

/-- The softmax weight of entry `n` of a row of scores. -/
def weight (s : Fin 256 → EReal) (n : Fin 256) : EReal :=
  Ideal.div (Ideal.exp (s n - rowMax s)) (∑ n' : Fin 256, Ideal.exp (s n' - rowMax s))

/-- A query row (its 128 features `qrow`) against the 256 pooled keys `ck` and values `cv` of its batch, gated by `g`:
    entry `d` of the output row. Stated over the row and the two pooled tables so that a block of rows and the whole
    array are the same function. -/
def attendRow (qrow : Fin 128 → EReal) (ck cv : Fin 256 → Fin 128 → EReal) (g : EReal) (d : Fin 128) : EReal :=
  (∑ n : Fin 256, weight (fun n' => (∑ d' : Fin 128, qrow d' * ck n' d') * cScale) n * cv n d) * g

/-- Entry (b, t, d) of the result. -/
def out (q k v : (⟨3, ![8, 16384, 128]⟩ : Shape).Idx → EReal) (g : (⟨2, ![8, 16384]⟩ : Shape).Idx → EReal)
    (b : Fin 8) (t : Fin 16384) (d : Fin 128) : EReal :=
  attendRow (fun d' => q (ix3 b t d')) (fun n d' => pool k b n d') (fun n d' => pool v b n d') (g (ix2 b t)) d

/-- The result as an array of extents [8, 16384, 128]. -/
def result (q k v : (⟨3, ![8, 16384, 128]⟩ : Shape).Idx → EReal) (g : (⟨2, ![8, 16384]⟩ : Shape).Idx → EReal) :
    (⟨3, ![8, 16384, 128]⟩ : Shape).Idx → EReal :=
  fun i => out q k v g (i 0) (i 1) (i 2)

end Cert.PooledAttention

end
-- ==== Proof.PooledBlocks.lean ====
/-
  The first region of the kernel program leaves, in its two output arrays, the block means of its two input arrays.

  The region runs over a grid of 8 × 4 points. At point (b, t) it reads rows 4096·t … 4096·t + 4095 of batch b of an
  input array of extents [8, 16384, 128] and writes rows 64·t … 64·t + 63 of batch b of an output array of extents
  [8, 256, 128]: output row 64·t + n is the sum of the 64 input rows 4096·t + 64·n + r, r < 64, divided by 64. Row
  4096·t + 64·n + r is row r of pooling block 64·t + n, so what a point writes is its block of the pooled array, and the
  32 blocks tile that array.
-/
import proofs.«146277_j45724221833311_2_alg».proof.Proof.Gen.KernelIdeal.Frame
import proofs.«146277_j45724221833311_2_alg».proof.Proof.PooledAttention
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PoolValue

open Cert.KernelIdeal Cert.KernelIdeal.Gen Idealize.ShloMosaic Idealize.ShloMosaic.TcCoe Idealize.SL.Sem
open Idealize.ShloMosaic.ValueIdx
open Idealize.ShloMosaic.Pipeline (Dat)
open Cert.PooledAttention

/-! ## The block mean of one block of 4096 rows -/

/-- Row `64·n + r` of a block of 4096 rows: row `r` of its `n`-th run of 64. -/
def runRow (n r : Fin 64) : Fin 4096 := ⟨64 * n.val + r.val, by have := n.isLt; have := r.isLt; omega⟩

/-- Entry (0, n, d) of what the body computes from a block `x` of 4096 rows: the sum of rows 64·n … 64·n + 63 of `x`
    at feature `d`, divided by 64. The block is viewed as 64 runs of 64 rows, summed along the rows of a run. -/
theorem blockMean_apply (x : Vec Ideal S1x4096x128 .f32) (n : Fin 64) (d : Fin 128) :
    k0_pay1 (F := Ideal) x (ix3 (0 : Fin 1) n d)
      = Ideal.div (∑ r : Fin 64, x (ix3 (0 : Fin 1) (runRow n r) d)) c64 := by
  unfold k0_pay1
  refine (shapeCast_ab_1ab_apply _ _ (0 : Fin 1) n d).trans ?_
  refine (divf_apply _ _ _).trans ?_
  refine congrArg₂ Ideal.div ?_ rfl
  refine (Ideal.multiReduction_add_single (φ := .f32) _ _ reduces_S64x64x128_S64x128 _ _ (ix2 n d)).trans ?_
  show ∑ r : Fin 64, _ = _
  refine Finset.sum_congr rfl fun r _ => ?_
  refine (shapeCast_apply _ _ _ (ix2 (runRow n r) d) ?_).trans ?_
  · rw [Shape.rowMajor_val_two, Shape.rowMajor_val_three]
    show (64 * n.val + r.val) * 128 + d.val = (n.val * 64 + r.val) * 128 + d.val
    omega
  · exact shapeCast_1ab_ab_apply _ _ _ _

/-- So when the block `x` holds rows 4096·q … 4096·q + 4095 of batch `b` of an array `A`, entry (0, n, d) of what the
    body computes is the block mean of `A` at (b, 64·q + n, d): row 4096·q + 64·n + r is row `r` of pooling block 64·q + n. -/
theorem blockMean_eq_pool (A : S8x16384x128.Idx → EReal) (x : Vec Ideal S1x4096x128 .f32) (b : Fin 8) (q : Fin 4)
    (hx : ∀ (ρ : Fin 4096) (d : Fin 128),
      x (ix3 (0 : Fin 1) ρ d) = A (ix3 b (⟨4096 * q.val + ρ.val, by have := q.isLt; have := ρ.isLt; omega⟩ : Fin 16384) d))
    (n : Fin 64) (d : Fin 128) :
    k0_pay1 (F := Ideal) x (ix3 (0 : Fin 1) n d)
      = PooledAttention.pool A b (⟨64 * q.val + n.val, by have := q.isLt; have := n.isLt; omega⟩ : Fin 256) d := by
  rw [blockMean_apply]
  unfold PooledAttention.pool
  refine congrArg₂ Ideal.div (Finset.sum_congr rfl fun r _ => ?_) rfl
  rw [hx]
  refine congrArg A (congrArg (fun ρ => ix3 b ρ d) (Fin.ext ?_))
  show 4096 * q.val + (64 * n.val + r.val) = 64 * (64 * q.val + n.val) + r.val
  omega

/-- The same at an index of the block and the index of the pooled array it sits at: batch `b`, row 64·q + (the block's
    row), the same feature. -/
theorem block_eq_pooled (A : S8x16384x128.Idx → EReal) (x : Vec Ideal S1x4096x128 .f32) (b : Fin 8) (q : Fin 4)
    (hx : ∀ (ρ : Fin 4096) (d : Fin 128),
      x (ix3 (0 : Fin 1) ρ d) = A (ix3 b (⟨4096 * q.val + ρ.val, by have := q.isLt; have := ρ.isLt; omega⟩ : Fin 16384) d))
    (j : S1x64x128.Idx) (i : S8x256x128.Idx)
    (h0 : (i 0).val = b.val) (h1 : (i 1).val = 64 * q.val + (j 1).val) (h2 : (i 2).val = (j 2).val) :
    k0_pay1 (F := Ideal) x j = pooled A i := by
  obtain ⟨u, n, d, rfl⟩ : ∃ (u : Fin 1) (n : Fin 64) (d : Fin 128), j = ix3 u n d := ⟨j 0, j 1, j 2, eq_ix3 j⟩
  obtain rfl : u = 0 := Subsingleton.elim _ _
  have h1' : (i 1).val = 64 * q.val + n.val := h1
  have h2' : (i 2).val = d.val := h2
  rw [blockMean_eq_pool A x b q hx n d]
  show PooledAttention.pool A b _ d = PooledAttention.pool A (i 0) (i 1) (i 2)
  have e0 : b = i 0 := Fin.ext h0.symm
  have e1 : (⟨64 * q.val + n.val, by have := q.isLt; have := n.isLt; omega⟩ : Fin 256) = i 1 := Fin.ext h1'.symm
  have e2 : d = i 2 := Fin.ext h2'.symm
  rw [e0, e1, e2]

/-! ## The region's windows: where a point's blocks sit -/

variable (V : (c : Dev nD) → (b : Ref sig .tc) → Buf (Elt Ideal) ((c : Thread nD τ).loc b))

theorem zeroOffsets : (![0, 0, 0] : Fin 3 → Nat) = fun _ => 0 := funext fun a => by fin_cases a <;> rfl

/-- The four index maps agree at every grid point; on the batch axis the block index is below 8, on the row axis below
    4, on the feature axis 0 (decided over the 32 points). -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = win0_3.index t (0 : Fin 3)
    ∧ win0_1.index t (1 : Fin 3) = win0_3.index t (1 : Fin 3)
    ∧ win0_1.index t (2 : Fin 3) = win0_3.index t (2 : Fin 3)
    ∧ win0_2.index t (0 : Fin 3) < 8 ∧ win0_2.index t (1 : Fin 3) < 4 ∧ win0_2.index t (2 : Fin 3) = 0
    ∧ win0_3.index t (0 : Fin 3) < 8 ∧ win0_3.index t (1 : Fin 3) < 4 ∧ win0_3.index t (2 : Fin 3) = 0 :=
  (by decide +kernel : ∀ t : Fin grid0.N, _)

/-- The keys' block at point `t` read at an index is the keys array at the index whose coordinate on each axis is the
    block index times the block's extent plus the coordinate inside the block. -/
theorem keysBlock_apply (c : Dev nD) (t : Fin cfg0.N) (y : S1x4096x128.Idx) (i : S8x16384x128.Idx)
    (h0 : (i 0).val = win0_0.index t (0 : Fin 3) * 1 + (y 0).val)
    (h1 : (i 1).val = win0_0.index t (1 : Fin 3) * 4096 + (y 1).val)
    (h2 : (i 2).val = win0_0.index t (2 : Fin 3) * 128 + (y 2).val) :
    (iblk0 (F := Ideal) V c 0 t : Vec Ideal S1x4096x128 .f32) y = (V c main_arg1 : S8x16384x128.Idx → EReal) i := by
  unfold iblk0
  show V c main_arg1 (((cfg0.win 0).blk t).view.emb y) = V c main_arg1 i
  congr 1
  funext a
  apply Fin.ext
  match a with
  | ⟨0, _⟩ => show win0_0.index t (0 : Fin 3) * 1 + 1 * (y 0).val = (i 0).val; omega
  | ⟨1, _⟩ => show win0_0.index t (1 : Fin 3) * 4096 + 1 * (y 1).val = (i 1).val; omega
  | ⟨2, _⟩ => show win0_0.index t (2 : Fin 3) * 128 + 1 * (y 2).val = (i 2).val; omega

/-! ## What a point writes back is its block of the pooled array -/

theorem flushedKeys (c : Dev nD) (t : Fin cfg0.N) :
    (dat0 (F := Ideal) V c).flushed 2 t = ((cfg0.win 2).blk t).view.read (Elt Ideal) (pooled (V c main_arg1)) := by
  show (cfg0.win 2).cut (grid0.coords t) ((dat0 V c).after 2 t) = _
  rw [after0_2]
  unfold out0_2
  rw [View.canon_unit_zero zeroOffsets]
  simp only [View.ld_unit_zero (S := S1x4096x128) zeroOffsets]
  obtain ⟨e0, e1, e2, -, -, -, l0, l1, z2, -, -, -⟩ := index_facts t
  funext j
  show k0_pay1 (F := Ideal) (iblk0 V c 0 t) j = pooled (V c main_arg1) (((cfg0.win 2).blk t).view.emb j)
  have hj0 : (j 0).val < 1 := (j 0).isLt
  refine block_eq_pooled (V c main_arg1) (iblk0 V c 0 t) ⟨win0_2.index t (0 : Fin 3), l0⟩ ⟨win0_2.index t (1 : Fin 3), l1⟩
    (fun ρ d => ?_) j _ ?_ ?_ ?_
  · refine keysBlock_apply V c t _ _ ?_ ?_ ?_
    · show win0_2.index t (0 : Fin 3) = win0_0.index t (0 : Fin 3) * 1 + 0; omega
    · show 4096 * win0_2.index t (1 : Fin 3) + ρ.val = win0_0.index t (1 : Fin 3) * 4096 + ρ.val; omega
    · show d.val = win0_0.index t (2 : Fin 3) * 128 + d.val; omega
  · show win0_2.index t (0 : Fin 3) * 1 + 1 * (j 0).val = win0_2.index t (0 : Fin 3); omega
  · show win0_2.index t (1 : Fin 3) * 64 + 1 * (j 1).val = 64 * win0_2.index t (1 : Fin 3) + (j 1).val; omega
  · show win0_2.index t (2 : Fin 3) * 128 + 1 * (j 2).val = (j 2).val; omega

/-! ## The 32 blocks tile the pooled array -/

/-- An index of the pooled array is in point `t`'s block iff each coordinate is in the block's range on its axis. -/
theorem mem_keysBlock (t : Fin cfg0.N) (i : S8x256x128.Idx) :
    i ∈ ((cfg0.win 2).blk t).view.set ↔ ∀ a : Fin 3, win0_2.index t a * S1x64x128.size a ≤ (i a).val ∧ (i a).val < win0_2.index t a * S1x64x128.size a + S1x64x128.size a := by
  show i ∈ ((View.whole main_v0_0).slice (win0_2.rect t)).set ↔ _
  rw [View.set_slice_whole, Rect.mem_set_unit]
  exact Iff.rfl

/-- Every (batch, run of 64 pooled rows) is some point's (decided over the grid). -/
theorem keysIndex_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- Pooled row `n` of batch `b` is in the block of the point with block index (b, n / 64, 0). -/
theorem coverKeys (i : S8x256x128.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 128 := (i 2).isLt
  obtain ⟨t, ht⟩ := keysIndex_onto ⟨(i 0).val, hi0⟩ ⟨(i 1).val / 64, by omega⟩
  have q0 : win0_2.index t (0 : Fin 3) = (i 0).val := congrFun ht 0
  have q1 : win0_2.index t (1 : Fin 3) = (i 1).val / 64 := congrFun ht 1
  have q2 : win0_2.index t (2 : Fin 3) = 0 := congrFun ht 2
  refine ⟨t, flush0_2 t, ?_⟩
  rw [mem_keysBlock]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 128 ≤ (i 2).val ∧ (i 2).val < win0_2.index t (2 : Fin 3) * 128 + 128; omega

/-- The first output array after the region: the block means of the keys. -/
theorem pooledKeys (c : Dev nD) :
    (Cert.KernelIdeal.Gen.dat0 (F := Ideal) V c).arrAt 2 cfg0.N = Cert.PooledAttention.pooled (V c main_arg1) :=
  (dat0 (F := Ideal) V c).arrAt_eq_of_cover 2 _ (fun t _ => flushedKeys V c t) coverKeys

/-! ## The values: the same body on the second input, the same index maps -/

/-- The body computes its second output from the second input block as it computes the first from the first. -/
theorem secondMean_eq (x : Vec Ideal S1x4096x128 .f32) : k0_pay2 (F := Ideal) x = k0_pay1 x := rfl

/-- The values' block at point `t` read at an index is the values array at the index whose coordinate on each axis is
    the block index times the block's extent plus the coordinate inside the block. -/
theorem valuesBlock_apply (c : Dev nD) (t : Fin cfg0.N) (y : S1x4096x128.Idx) (i : S8x16384x128.Idx)
    (h0 : (i 0).val = win0_1.index t (0 : Fin 3) * 1 + (y 0).val)
    (h1 : (i 1).val = win0_1.index t (1 : Fin 3) * 4096 + (y 1).val)
    (h2 : (i 2).val = win0_1.index t (2 : Fin 3) * 128 + (y 2).val) :
    (iblk0 (F := Ideal) V c 1 t : Vec Ideal S1x4096x128 .f32) y = (V c main_arg2 : S8x16384x128.Idx → EReal) i := by
  unfold iblk0
  show V c main_arg2 (((cfg0.win 1).blk t).view.emb y) = V c main_arg2 i
  congr 1
  funext a
  apply Fin.ext
  match a with
  | ⟨0, _⟩ => show win0_1.index t (0 : Fin 3) * 1 + 1 * (y 0).val = (i 0).val; omega
  | ⟨1, _⟩ => show win0_1.index t (1 : Fin 3) * 4096 + 1 * (y 1).val = (i 1).val; omega
  | ⟨2, _⟩ => show win0_1.index t (2 : Fin 3) * 128 + 1 * (y 2).val = (i 2).val; omega

theorem flushedValues (c : Dev nD) (t : Fin cfg0.N) :
    (dat0 (F := Ideal) V c).flushed 3 t = ((cfg0.win 3).blk t).view.read (Elt Ideal) (pooled (V c main_arg2)) := by
  show (cfg0.win 3).cut (grid0.coords t) ((dat0 V c).after 3 t) = _
  rw [after0_3]
  unfold out0_3
  rw [View.canon_unit_zero zeroOffsets]
  simp only [View.ld_unit_zero (S := S1x4096x128) zeroOffsets]
  rw [secondMean_eq]
  obtain ⟨-, -, -, e0, e1, e2, -, -, -, l0, l1, z2⟩ := index_facts t
  funext j
  show k0_pay1 (F := Ideal) (iblk0 V c 1 t) j = pooled (V c main_arg2) (((cfg0.win 3).blk t).view.emb j)
  have hj0 : (j 0).val < 1 := (j 0).isLt
  refine block_eq_pooled (V c main_arg2) (iblk0 V c 1 t) ⟨win0_3.index t (0 : Fin 3), l0⟩ ⟨win0_3.index t (1 : Fin 3), l1⟩
    (fun ρ d => ?_) j _ ?_ ?_ ?_
  · refine valuesBlock_apply V c t _ _ ?_ ?_ ?_
    · show win0_3.index t (0 : Fin 3) = win0_1.index t (0 : Fin 3) * 1 + 0; omega
    · show 4096 * win0_3.index t (1 : Fin 3) + ρ.val = win0_1.index t (1 : Fin 3) * 4096 + ρ.val; omega
    · show d.val = win0_1.index t (2 : Fin 3) * 128 + d.val; omega
  · show win0_3.index t (0 : Fin 3) * 1 + 1 * (j 0).val = win0_3.index t (0 : Fin 3); omega
  · show win0_3.index t (1 : Fin 3) * 64 + 1 * (j 1).val = 64 * win0_3.index t (1 : Fin 3) + (j 1).val; omega
  · show win0_3.index t (2 : Fin 3) * 128 + 1 * (j 2).val = (j 2).val; omega

/-- An index of the pooled array is in point `t`'s block iff each coordinate is in the block's range on its axis. -/
theorem mem_valuesBlock (t : Fin cfg0.N) (i : S8x256x128.Idx) :
    i ∈ ((cfg0.win 3).blk t).view.set ↔ ∀ a : Fin 3, win0_3.index t a * S1x64x128.size a ≤ (i a).val ∧ (i a).val < win0_3.index t a * S1x64x128.size a + S1x64x128.size a := by
  show i ∈ ((View.whole main_v0_1).slice (win0_3.rect t)).set ↔ _
  rw [View.set_slice_whole, Rect.mem_set_unit]
  exact Iff.rfl

/-- Every (batch, run of 64 pooled rows) is some point's (decided over the grid). -/
theorem valuesIndex_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- Pooled row `n` of batch `b` is in the block of the point with block index (b, n / 64, 0). -/
theorem coverValues (i : S8x256x128.Idx) :
    ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 128 := (i 2).isLt
  obtain ⟨t, ht⟩ := valuesIndex_onto ⟨(i 0).val, hi0⟩ ⟨(i 1).val / 64, by omega⟩
  have q0 : win0_3.index t (0 : Fin 3) = (i 0).val := congrFun ht 0
  have q1 : win0_3.index t (1 : Fin 3) = (i 1).val / 64 := congrFun ht 1
  have q2 : win0_3.index t (2 : Fin 3) = 0 := congrFun ht 2
  refine ⟨t, flush0_3 t, ?_⟩
  rw [mem_valuesBlock]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 128 ≤ (i 2).val ∧ (i 2).val < win0_3.index t (2 : Fin 3) * 128 + 128; omega

/-- The second output array after the region: the block means of the values. -/
theorem pooledValues (c : Dev nD) :
    (Cert.KernelIdeal.Gen.dat0 (F := Ideal) V c).arrAt 3 cfg0.N = Cert.PooledAttention.pooled (V c main_arg2) :=
  (dat0 (F := Ideal) V c).arrAt_eq_of_cover 3 _ (fun t _ => flushedValues V c t) coverValues

end Cert.KernelIdeal.PoolValue

end
-- ==== Proof.AttendBlock.lean ====
/-
  One grid point of the attention region: what the body stores, entry by entry.

  The body holds a block of 2048 query rows x0 [1, 2048, 128], the 256 pooled keys x1 and pooled values x2 of the batch
  [1, 256, 128], and the rows' gates x3 [1, 2048, 1]. Entry (p, d) of what it stores is

      (∑ n, w(p, n) · x2(n, d)) · x3(p),     w(p, ·) the softmax weights of the row of scores  s(p, n) = (∑ d', x0(p, d') · x1(n, d')) · c,

  that is, the specification's `attendRow` of row p of the block, the two pooled tables and the row's gate. On the extended
  reals a change of float format is the identity, a product into a zero accumulator is the finite sum of products, a lane
  sum is a finite sum and a lane maximum the fold of `max` from −∞; the rest is reading each re-laid value at an index.
-/
import proofs.«146277_j45724221833311_2_alg».proof.Proof.Gen.KernelIdeal.Skeleton
import proofs.«146277_j45724221833311_2_alg».proof.Proof.PooledAttention
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttendBlock

open Idealize.ShloMosaic Idealize.ShloMosaic.ValueIdx
open Cert.KernelIdeal Cert.KernelIdeal.Gen Cert.PooledAttention

/-! ## Re-laid values read at an index -/

/-- A vector of length `a` cast to a column [a, 1] reads, at (p, 0), the vector at p. -/
theorem shapeCast_column_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    omega)

/-- A column [a, 1] broadcast along a second axis of extent `b` reads, at (p, c), the column at (p, 0). -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` of a [2048, 256] array with the lane `k` put back is (p, k). -/
theorem lift_lane (h : S2048x256.Reduces [1] S2048) (p : Fin 2048) (k : Fin (S2048x256.size 1)) :
    h.lift (ix1 p) k = ix2 p (⟨k.val, k.isLt⟩ : Fin 256) := by
  funext c; apply Fin.ext
  fin_cases c <;> rfl

/-! ## The two products at an entry -/

/-- Off the contracted axis the operand indices of the two products are the output's coordinates. -/
theorem scoresDot_lhs0 (i : S2048x256.Idx) (q : dot_S2048x128_S256x128_S2048x256_1_1_0_0_n_n.contr.Idx) : (dot_S2048x128_S256x128_S2048x256_1_1_0_0_n_n.lhsIdx i q 0).val = (i 0).val := by
  unfold DotDims.lhsIdx
  rw [dif_neg (show ¬(0 : Fin S2048x128.rank) ∈ dot_S2048x128_S256x128_S2048x256_1_1_0_0_n_n.lhsBatch by decide), dif_pos (show (0 : Fin S2048x128.rank) ∈ dot_S2048x128_S256x128_S2048x256_1_1_0_0_n_n.lhsNonContracting by decide)]
  rfl
theorem scoresDot_rhs0 (i : S2048x256.Idx) (q : dot_S2048x128_S256x128_S2048x256_1_1_0_0_n_n.contr.Idx) : (dot_S2048x128_S256x128_S2048x256_1_1_0_0_n_n.rhsIdx i q 0).val = (i 1).val := by
  unfold DotDims.rhsIdx
  rw [dif_neg (show ¬(0 : Fin S256x128.rank) ∈ dot_S2048x128_S256x128_S2048x256_1_1_0_0_n_n.rhsBatch by decide), dif_pos (show (0 : Fin S256x128.rank) ∈ dot_S2048x128_S256x128_S2048x256_1_1_0_0_n_n.rhsNonContracting by decide)]
  rfl
theorem valuesDot_lhs0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem valuesDot_rhs1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- Rows against rows: entry (p, n) of the product of a [2048, 128] array with a [256, 128] array over their trailing
    axes, into the zero accumulator, is ∑ k, a(p, k) · w(n, k). -/
theorem scoresDot_apply {φ₁ φ₂ : FTy} (a : FVec Ideal S2048x128 φ₁) (w : FVec Ideal S256x128 φ₂) (p : Fin 2048) (n : Fin 256) :
    matmul dot_S2048x128_S256x128_S2048x256_1_1_0_0_n_n none a w (constant (F := Ideal) S2048x256 .f32 0x00000000#32) (ix2 p n)
      = ∑ k : Fin 128, a (ix2 p k) * w (ix2 n k) := by
  show FloatOps.matmul dot_S2048x128_S256x128_S2048x256_1_1_0_0_n_n none a w (constant (F := Ideal) S2048x256 .f32 0x00000000#32) (ix2 p n) = _
  rw [Ideal.matmul_constant_zero_apply, ← Equiv.sum_comp (contrEquiv1 dot_S2048x128_S256x128_S2048x256_1_1_0_0_n_n 128 rfl rfl).symm]
  refine Finset.sum_congr rfl fun k _ => ?_
  have hk := contrEquiv1_symm_val dot_S2048x128_S256x128_S2048x256_1_1_0_0_n_n 128 rfl rfl k
  have el : dot_S2048x128_S256x128_S2048x256_1_1_0_0_n_n.lhsIdx (ix2 p n) ((contrEquiv1 dot_S2048x128_S256x128_S2048x256_1_1_0_0_n_n 128 rfl rfl).symm k) = ix2 p k := funext fun ax => Fin.ext (by
    match ax with
    | ⟨0, _⟩ => exact scoresDot_lhs0 _ _
    | ⟨1, _⟩ => exact (dot_S2048x128_S256x128_S2048x256_1_1_0_0_n_n.lhsIdx_val_of_single rfl _ _).trans hk)
  have er : dot_S2048x128_S256x128_S2048x256_1_1_0_0_n_n.rhsIdx (ix2 p n) ((contrEquiv1 dot_S2048x128_S256x128_S2048x256_1_1_0_0_n_n 128 rfl rfl).symm k) = ix2 n k := funext fun ax => Fin.ext (by
    match ax with
    | ⟨0, _⟩ => exact scoresDot_rhs0 _ _
    | ⟨1, _⟩ => exact (dot_S2048x128_S256x128_S2048x256_1_1_0_0_n_n.rhsIdx_val_of_single rfl _ _).trans hk)
  rw [el, er]

/-- Rows against columns: entry (p, d) of the product of a [2048, 256] array with a [256, 128] array, into the zero
    accumulator, is ∑ n, a(p, n) · v(n, d). -/
theorem valuesDot_apply {φ₁ φ₂ : FTy} (a : FVec Ideal S2048x256 φ₁) (v : FVec Ideal S256x128 φ₂) (p : Fin 2048) (d : Fin 128) :
    matmul dot_S2048x256_S256x128_S2048x128_1_0_0_1_n_n none a v (constant (F := Ideal) S2048x128 .f32 0x00000000#32) (ix2 p d)
      = ∑ n : Fin 256, a (ix2 p n) * v (ix2 n d) := by
  show FloatOps.matmul dot_S2048x256_S256x128_S2048x128_1_0_0_1_n_n none a v (constant (F := Ideal) S2048x128 .f32 0x00000000#32) (ix2 p d) = _
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p d) ((contrEquiv1 dot_S2048x256_S256x128_S2048x128_1_0_0_1_n_n 256 rfl rfl).symm k) = ix2 p k := funext fun ax => Fin.ext (by
    match ax with
    | ⟨0, _⟩ => exact valuesDot_lhs0 _ _
    | ⟨1, _⟩ => exact (dot_S2048x256_S256x128_S2048x128_1_0_0_1_n_n.lhsIdx_val_of_single rfl _ _).trans hk)
  have er : dot_S2048x256_S256x128_S2048x128_1_0_0_1_n_n.rhsIdx (ix2 p d) ((contrEquiv1 dot_S2048x256_S256x128_S2048x128_1_0_0_1_n_n 256 rfl rfl).symm k) = ix2 k d := funext fun ax => Fin.ext (by
    match ax with
    | ⟨0, _⟩ => exact (dot_S2048x256_S256x128_S2048x128_1_0_0_1_n_n.rhsIdx_val_of_single rfl _ _).trans hk
    | ⟨1, _⟩ => exact valuesDot_rhs1 _ _)
  rw [el, er]

/-! ## A row's maximum and a row's sum -/

/-- The lane maximum of a [2048, 256] array, from −∞, at row p: the specification's fold over the row. -/
theorem laneMax_apply (s : FVec Ideal S2048x256 .f32) (h : S2048x256.Reduces [1] S2048) (hφ : FKind.Formats .f32)
    (hacc : (0xFF800000#32 : BitVec 32) = FKind.maximumf.neutral .f32 hφ) (p : Fin 2048) :
    multiReduction (F := Ideal) .maximumf [1] S2048 s 0xFF800000#32 h hφ hacc (ix1 p) = rowMax fun n => s (ix2 p n) := by
  rw [Ideal.multiReduction_maximumf_single]
  have hf : (s ∘ h.lift (ix1 p)) = fun n : Fin 256 => s (ix2 p n) := funext fun k => congrArg s (lift_lane h p k)
  unfold rowMax
  exact congrArg (fun f => Finset.fold max (Ideal.ofBits .f32 0xFF800000#32) f (Finset.univ : Finset (Fin 256))) hf

/-- The lane sum of a [2048, 256] array at row p. -/
theorem laneSum_apply (e : FVec Ideal S2048x256 .f32) (h : S2048x256.Reduces [1] S2048) (hφ : FKind.Formats .f32)
    (hacc : (0x00000000#32 : BitVec 32) = FKind.add.neutral .f32 hφ) (p : Fin 2048) :
    multiReduction (F := Ideal) .add [1] S2048 e 0x00000000#32 h hφ hacc (ix1 p) = ∑ n : Fin 256, e (ix2 p n) := by
  rw [Ideal.multiReduction_add_single]
  exact Finset.sum_congr rfl fun k _ => congrArg e (lift_lane h p k)

/-! ## The body in three pieces -/

/-- The block of scores: the product of the query rows with the pooled keys, scaled. -/
def scoresBlock (x0 : Vec Ideal S1x2048x128 .f32) (x1 : Vec Ideal S1x256x128 .f32) : FVec Ideal S2048x256 .f32 :=
  mulf (matmul dot_S2048x128_S256x128_S2048x256_1_1_0_0_n_n none
      (truncf .bf16 (shapeCast S2048x128 x0 shapeCasts_S1x2048x128_S2048x128) bitsLt_bf16_f32)
      (truncf .bf16 (shapeCast S256x128 x1 shapeCasts_S1x256x128_S256x128) bitsLt_bf16_f32)
      (constant S2048x256 .f32 0x00000000#32))
    (broadcast S2048x256 (Scalar.ofBits .f32 0x3DB504F3#32))

/-- The softmax of every row of a block of scores. -/
def weightsBlock (s : FVec Ideal S2048x256 .f32) : FVec Ideal S2048x256 .f32 :=
  divf
    (exp (subf s (broadcastTo S2048x256 (shapeCast S2048x1 (multiReduction .maximumf [1] S2048 s 0xFF800000#32 reduces_S2048x256_S2048 (.inl rfl) rfl) shapeCasts_S2048_S2048x1) broadcasts_S2048x1_S2048x256)))
    (broadcastTo S2048x256 (shapeCast S2048x1 (multiReduction .add [1] S2048
        (exp (subf s (broadcastTo S2048x256 (shapeCast S2048x1 (multiReduction .maximumf [1] S2048 s 0xFF800000#32 reduces_S2048x256_S2048 (.inl rfl) rfl) shapeCasts_S2048_S2048x1) broadcasts_S2048x1_S2048x256)))
        0x00000000#32 reduces_S2048x256_S2048 (.inl rfl) rfl) shapeCasts_S2048_S2048x1) broadcasts_S2048x1_S2048x256)

/-- The body's stored value is the weights against the pooled values, gated, under a leading unit axis. -/
theorem payload_eq (x0 : Vec Ideal S1x2048x128 .f32) (x1 x2 : Vec Ideal S1x256x128 .f32) (x3 : Vec Ideal S1x2048x1 .f32) :
    k1_pay1 (F := Ideal) x0 x1 x2 x3
      = shapeCast S1x2048x128
          (mulf (matmul dot_S2048x256_S256x128_S2048x128_1_0_0_1_n_n none
              (truncf .bf16 (weightsBlock (scoresBlock x0 x1)) bitsLt_bf16_f32)
              (truncf .bf16 (shapeCast S256x128 x2 shapeCasts_S1x256x128_S256x128) bitsLt_bf16_f32)
              (constant S2048x128 .f32 0x00000000#32))
            (broadcastTo S2048x128 (shapeCast S2048x1 x3 shapeCasts_S1x2048x1_S2048x1) broadcasts_S2048x1_S2048x128))
          shapeCasts_S2048x128_S1x2048x128 := rfl

/-- Entry (p, n) of the block of scores. -/
theorem scoresBlock_apply (x0 : Vec Ideal S1x2048x128 .f32) (x1 : Vec Ideal S1x256x128 .f32) (p : Fin 2048) (n : Fin 256) :
    scoresBlock x0 x1 (ix2 p n) = (∑ d' : Fin 128, x0 (ix3 (0 : Fin 1) p d') * x1 (ix3 (0 : Fin 1) n d')) * cScale := by
  unfold scoresBlock
  rw [mulf_apply, scoresDot_apply]
  refine congrArg (· * cScale) (Finset.sum_congr rfl fun k _ => ?_)
  rw [truncf_apply, truncf_apply, shapeCast_1ab_ab_apply, shapeCast_1ab_ab_apply]

/-- Entry (p, n) of the softmax block is the specification's weight of entry n of row p. -/
theorem weightsBlock_apply (s : FVec Ideal S2048x256 .f32) (p : Fin 2048) (n : Fin 256) :
    weightsBlock s (ix2 p n) = weight (fun n' => s (ix2 p n')) n := by
  have hmax : ∀ n' : Fin 256, (broadcastTo S2048x256 (shapeCast S2048x1 (multiReduction (F := Ideal) .maximumf [1] S2048 s 0xFF800000#32 reduces_S2048x256_S2048 (.inl rfl) rfl) shapeCasts_S2048_S2048x1) broadcasts_S2048x1_S2048x256) (ix2 p n')
      = rowMax fun n'' => s (ix2 p n'') := fun n' => by
    rw [broadcastTo_column_apply, shapeCast_column_apply]
    exact laneMax_apply s _ _ _ p
  have hexp : ∀ n' : Fin 256, (exp (subf s (broadcastTo S2048x256 (shapeCast S2048x1 (multiReduction (F := Ideal) .maximumf [1] S2048 s 0xFF800000#32 reduces_S2048x256_S2048 (.inl rfl) rfl) shapeCasts_S2048_S2048x1) broadcasts_S2048x1_S2048x256))) (ix2 p n')
      = Ideal.exp (s (ix2 p n') - rowMax fun n'' => s (ix2 p n'')) := fun n' => by
    show Ideal.exp (s (ix2 p n') - _) = _
    rw [hmax n']
  unfold weightsBlock weight
  rw [divf_apply, hexp n, broadcastTo_column_apply, shapeCast_column_apply]
  exact congrArg (Ideal.div _) ((laneSum_apply _ _ _ _ p).trans (Finset.sum_congr rfl fun n' _ => hexp n'))

/-! ## The stored value at an entry -/

/-- Entry (p, d) of what the body stores is the specification's output row of query row p against the two pooled tables,
    gated by the row's gate. -/
theorem payload_apply (x0 : Vec Ideal S1x2048x128 .f32) (x1 x2 : Vec Ideal S1x256x128 .f32) (x3 : Vec Ideal S1x2048x1 .f32)
    (p : Fin 2048) (d : Fin 128) :
    k1_pay1 (F := Ideal) x0 x1 x2 x3 (ix3 (0 : Fin 1) p d)
      = attendRow (fun d' => x0 (ix3 (0 : Fin 1) p d')) (fun n d' => x1 (ix3 (0 : Fin 1) n d')) (fun n d' => x2 (ix3 (0 : Fin 1) n d'))
          (x3 (ix3 (0 : Fin 1) p (0 : Fin 1))) d := by
  rw [payload_eq, shapeCast_ab_1ab_apply, mulf_apply, valuesDot_apply, broadcastTo_column_apply, shapeCast_1ab_ab_apply]
  unfold attendRow
  refine congrArg (· * x3 (ix3 (0 : Fin 1) p (0 : Fin 1))) (Finset.sum_congr rfl fun n _ => ?_)
  rw [truncf_apply, truncf_apply, shapeCast_1ab_ab_apply, weightsBlock_apply]
  refine congrArg (· * x2 (ix3 (0 : Fin 1) n d)) ?_
  exact congrArg (fun s => weight s n) (funext fun n' => scoresBlock_apply x0 x1 p n')

end Cert.KernelIdeal.AttendBlock

end
-- ==== Proof.AttendArrays.lean ====
/-
  The attention region, from blocks to the whole array.

  The region's grid is 8 × 8: point (b, t) holds rows 2048·t … 2048·t + 2047 of batch b of the queries and of the gate
  column, the whole pooled key and value tables of batch b, and writes the same rows of the result. Each stored entry is
  the specification's output row (the body's stored value, read entry by entry), so what a point writes back is its
  block of ONE whole-array function of the region's four input arrays; the 64 blocks tile the result, so the result array
  ends as that function.
-/
import proofs.«146277_j45724221833311_2_alg».proof.Proof.Gen.KernelIdeal.Frame
import proofs.«146277_j45724221833311_2_alg».proof.Proof.AttendBlock
import Idealize.ShloMosaic.Lib.Pipeline.Value
import Idealize.ShloMosaic.Lib.ValueIdx

set_option maxRecDepth 16384

noncomputable section

open scoped BigOperators

namespace Cert.KernelIdeal.AttendValue

open Idealize.ShloMosaic Idealize.ShloMosaic.ValueIdx Idealize.SL.Sem
open Cert.KernelIdeal Cert.KernelIdeal.Gen Cert.PooledAttention

/-- Row `2048·t + p` of a batch: row `p` of the block of rows grid coordinate `t` holds. -/
def rowOf (t : Fin 8) (p : Fin 2048) : Fin 16384 := ⟨2048 * t.val + p.val, by have := t.isLt; have := p.isLt; omega⟩

/-- Entry (b, t, d) of the result from the queries `q`, ALREADY pooled keys `ck` and values `cv`, and the gate as a column `g3`. -/
def attendedAt (q : S8x16384x128.Idx → EReal) (ck cv : S8x256x128.Idx → EReal) (g3 : S8x16384x1.Idx → EReal)
    (b : Fin 8) (t : Fin 16384) (d : Fin 128) : EReal :=
  attendRow (fun d' => q (ix3 b t d')) (fun n d' => ck (ix3 b n d')) (fun n d' => cv (ix3 b n d')) (g3 (ix3 b t (0 : Fin 1))) d

/-- The same as an array of extents [8, 16384, 128]. -/
def attended (q : S8x16384x128.Idx → EReal) (ck cv : S8x256x128.Idx → EReal) (g3 : S8x16384x1.Idx → EReal) :
    S8x16384x128.Idx → EReal :=
  fun i => attendedAt q ck cv g3 (i 0) (i 1) (i 2)

theorem offsets_zero : (![0, 0, 0] : Fin 3 → Nat) = fun _ => 0 := funext fun a => by fin_cases a <;> rfl

/-- One grid point, over any blocks: if the four loaded blocks are the rows 2048·t … of batch b of `q` and `g3` and the
    tables of batch b of `ck` and `cv`, the body's stored value at a block index is the whole-array function there. -/
theorem point_value (x0 : Vec Ideal S1x2048x128 .f32) (x1 x2 : Vec Ideal S1x256x128 .f32) (x3 : Vec Ideal S1x2048x1 .f32)
    (q : S8x16384x128.Idx → EReal) (ck cv : S8x256x128.Idx → EReal) (g3 : S8x16384x1.Idx → EReal) (b : Fin 8) (t : Fin 8)
    (h0 : ∀ (p : Fin 2048) (d' : Fin 128), x0 (ix3 (0 : Fin 1) p d') = q (ix3 b (rowOf t p) d'))
    (h1 : ∀ (n : Fin 256) (d' : Fin 128), x1 (ix3 (0 : Fin 1) n d') = ck (ix3 b n d'))
    (h2 : ∀ (n : Fin 256) (d' : Fin 128), x2 (ix3 (0 : Fin 1) n d') = cv (ix3 b n d'))
    (h3 : ∀ p : Fin 2048, x3 (ix3 (0 : Fin 1) p (0 : Fin 1)) = g3 (ix3 b (rowOf t p) (0 : Fin 1)))
    (y : S1x2048x128.Idx) :
    k1_pay1 (F := Ideal) x0 x1 x2 x3 y = attendedAt q ck cv g3 b (rowOf t (y 1)) (y 2) := by
  obtain ⟨u, p, d, rfl⟩ : ∃ (u : Fin 1) (p : Fin 2048) (d : Fin 128), y = ix3 u p d := ⟨y 0, y 1, y 2, eq_ix3 y⟩
  have hu : u = 0 := Fin.ext (by omega)
  subst hu
  rw [AttendBlock.payload_apply]
  unfold attendedAt
  simp only [h0, h1, h2, h3]

/-- The printed index maps, decided once over the grid: the query, gate and result windows move together, the two pooled
    tables follow the batch coordinate only. -/
theorem idx_facts : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = win1_4.index t (1 : Fin 3) ∧ win1_3.index t (2 : Fin 3) = 0
    ∧ win1_4.index t (0 : Fin 3) < 8 ∧ win1_4.index t (1 : Fin 3) < 8 ∧ win1_4.index t (2 : Fin 3) = 0 :=
  (by decide +kernel : ∀ t : Fin grid1.N, _)

/-- Every block of the result is some point's. -/
theorem idx_onto : ∀ (q0 : Fin 8) (q1 : Fin 8), ∃ t : Fin cfg1.N, win1_4.index t = ![q0.val, q1.val, 0] :=
  (by decide +kernel : ∀ (q0 : Fin 8) (q1 : Fin 8), ∃ t : Fin grid1.N, win1_4.index t = ![q0.val, q1.val, 0])

variable (V : (c : Dev nD) → (b : Ref sig .tc) → Buf (Elt Ideal) ((c.tc : Thread nD τ).loc b))

/-- What point `t` writes back is block `t` of the whole-array function of the region's input arrays as the region finds them. -/
theorem flushed_eq (c : Dev nD) (t : Fin cfg1.N) :
    (dat1 V c).flushed 4 t
      = ((cfg1.win 4).blk t).view.read (Elt Ideal) (attended (V c main_arg0) (V c main_v0_0) (V c main_v0_1) (V c main_v1)) := by
  show (cfg1.win 4).cut (grid1.coords t) ((dat1 V c).after 4 t) = _
  rw [after1_4]
  unfold out1_4
  rw [View.canon_unit_zero offsets_zero]
  simp only [View.ld_unit_zero (S := S1x2048x128) offsets_zero, View.ld_unit_zero (S := S1x256x128) offsets_zero,
    View.ld_unit_zero (S := S1x2048x1) offsets_zero]
  obtain ⟨e00, e01, e02, e10, e11, e12, e20, e21, e22, e30, e31, e32, hb, ht, e42⟩ := idx_facts t
  funext j
  refine (point_value (iblk1 V c 0 t) (iblk1 V c 1 t) (iblk1 V c 2 t) (iblk1 V c 3 t)
    (V c main_arg0) (V c main_v0_0) (V c main_v0_1) (V c main_v1) ⟨win1_4.index t (0 : Fin 3), hb⟩ ⟨win1_4.index t (1 : Fin 3), ht⟩ ?_ ?_ ?_ ?_ j).trans ?_
  · intro p d'
    show V c main_arg0 (((cfg1.win 0).blk t).view.emb (ix3 (0 : Fin 1) p d')) = V c main_arg0 _
    refine congrArg (V c main_arg0) (funext fun a => Fin.ext ?_)
    match a with
    | ⟨0, _⟩ => show win1_0.index t (0 : Fin 3) * 1 + 1 * (0 : ℕ) = win1_4.index t (0 : Fin 3); omega
    | ⟨1, _⟩ => show win1_0.index t (1 : Fin 3) * 2048 + 1 * p.val = 2048 * win1_4.index t (1 : Fin 3) + p.val; omega
    | ⟨2, _⟩ => show win1_0.index t (2 : Fin 3) * 128 + 1 * d'.val = d'.val; omega
  · intro n d'
    show V c main_v0_0 (((cfg1.win 1).blk t).view.emb (ix3 (0 : Fin 1) n d')) = V c main_v0_0 _
    refine congrArg (V c main_v0_0) (funext fun a => Fin.ext ?_)
    match a with
    | ⟨0, _⟩ => show win1_1.index t (0 : Fin 3) * 1 + 1 * (0 : ℕ) = win1_4.index t (0 : Fin 3); omega
    | ⟨1, _⟩ => show win1_1.index t (1 : Fin 3) * 256 + 1 * n.val = n.val; omega
    | ⟨2, _⟩ => show win1_1.index t (2 : Fin 3) * 128 + 1 * d'.val = d'.val; omega
  · intro n d'
    show V c main_v0_1 (((cfg1.win 2).blk t).view.emb (ix3 (0 : Fin 1) n d')) = V c main_v0_1 _
    refine congrArg (V c main_v0_1) (funext fun a => Fin.ext ?_)
    match a with
    | ⟨0, _⟩ => show win1_2.index t (0 : Fin 3) * 1 + 1 * (0 : ℕ) = win1_4.index t (0 : Fin 3); omega
    | ⟨1, _⟩ => show win1_2.index t (1 : Fin 3) * 256 + 1 * n.val = n.val; omega
    | ⟨2, _⟩ => show win1_2.index t (2 : Fin 3) * 128 + 1 * d'.val = d'.val; omega
  · intro p
    show V c main_v1 (((cfg1.win 3).blk t).view.emb (ix3 (0 : Fin 1) p (0 : Fin 1))) = V c main_v1 _
    refine congrArg (V c main_v1) (funext fun a => Fin.ext ?_)
    match a with
    | ⟨0, _⟩ => show win1_3.index t (0 : Fin 3) * 1 + 1 * (0 : ℕ) = win1_4.index t (0 : Fin 3); omega
    | ⟨1, _⟩ => show win1_3.index t (1 : Fin 3) * 2048 + 1 * p.val = 2048 * win1_4.index t (1 : Fin 3) + p.val; omega
    | ⟨2, _⟩ => show win1_3.index t (2 : Fin 3) * 1 + 1 * (0 : ℕ) = 0; omega
  · have hj0 : (j 0).val < 1 := (j 0).isLt
    have hj1 : (j 1).val < 2048 := (j 1).isLt
    have hj2 : (j 2).val < 128 := (j 2).isLt
    have e0 : (⟨win1_4.index t (0 : Fin 3), hb⟩ : Fin 8) = (((cfg1.win 4).blk t).view.emb j) 0 :=
      Fin.ext (by show win1_4.index t (0 : Fin 3) = win1_4.index t (0 : Fin 3) * 1 + 1 * (j 0).val; omega)
    have e1 : rowOf ⟨win1_4.index t (1 : Fin 3), ht⟩ (j 1) = (((cfg1.win 4).blk t).view.emb j) 1 :=
      Fin.ext (by show 2048 * win1_4.index t (1 : Fin 3) + (j 1).val = win1_4.index t (1 : Fin 3) * 2048 + 1 * (j 1).val; omega)
    have e2 : (j 2 : Fin 128) = (((cfg1.win 4).blk t).view.emb j) 2 :=
      Fin.ext (by show (j 2).val = win1_4.index t (2 : Fin 3) * 128 + 1 * (j 2).val; omega)
    show attendedAt _ _ _ _ _ _ _ = attendedAt _ _ _ _ ((((cfg1.win 4).blk t).view.emb j) 0) ((((cfg1.win 4).blk t).view.emb j) 1) ((((cfg1.win 4).blk t).view.emb j) 2)
    rw [e0, e1, e2]

/-- An index of the result is in point `t`'s block iff each coordinate is in the block's range on its axis. -/
theorem mem_blk (t : Fin cfg1.N) (i : S8x16384x128.Idx) :
    i ∈ ((cfg1.win 4).blk t).view.set ↔ ∀ a : Fin 3, win1_4.index t a * S1x2048x128.size a ≤ (i a).val ∧ (i a).val < win1_4.index t a * S1x2048x128.size a + S1x2048x128.size a := by
  show i ∈ ((View.whole main_v2).slice (win1_4.rect t)).set ↔ _
  rw [View.set_slice_whole, Rect.mem_set_unit]
  exact Iff.rfl

/-- The blocks tile the result: row r of batch b is in the block of point (b, r / 2048). -/
theorem covered (i : S8x16384x128.Idx) : ∃ t : Fin cfg1.N, (cfg1.win 4).flush t = true ∧ i ∈ ((cfg1.win 4).blk t).view.set := by
  have hi0 : (i 0).val < 8 := (i 0).isLt
  have hi1 : (i 1).val < 16384 := (i 1).isLt
  have hi2 : (i 2).val < 128 := (i 2).isLt
  obtain ⟨t, ht⟩ := idx_onto ⟨(i 0).val, hi0⟩ ⟨(i 1).val / 2048, by omega⟩
  have q0 : win1_4.index t (0 : Fin 3) = (i 0).val := congrFun ht 0
  have q1 : win1_4.index t (1 : Fin 3) = (i 1).val / 2048 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 2048 ≤ (i 1).val ∧ (i 1).val < win1_4.index t (1 : Fin 3) * 2048 + 2048; omega
  | ⟨2, _⟩ => show win1_4.index t (2 : Fin 3) * 128 ≤ (i 2).val ∧ (i 2).val < win1_4.index t (2 : Fin 3) * 128 + 128; omega

/-- The result array after the region's write-backs: the whole-array function of the arrays the region was entered with. -/
theorem attended_final (c : Dev nD) :
    (dat1 V c).arrAt 4 cfg1.N = attended (V c main_arg0) (V c main_v0_0) (V c main_v0_1) (V c main_v1) :=
  (dat1 V c).arrAt_eq_of_cover 4 _ (fun t _ => flushed_eq V c t) covered

end Cert.KernelIdeal.AttendValue

end
-- ==== Proof.KernelValue.lean ====
/-
  The idealized kernel program's result array is the specification of its four arguments.

  The attention region is entered with: the queries as launched (nothing before it writes them); the two arrays the
  pooling region left, which are the block means of the keys and of the values as launched; and the gate re-laid by the one
  host operation between the regions as a column [8, 16384, 1], entry (b, t, 0) being the gate's (b, t). The attention
  region's result at those four arrays is, entry by entry, the specification's output.
-/
import proofs.«146277_j45724221833311_2_alg».proof.Proof.Gen.KernelIdeal.Frame
import proofs.«146277_j45724221833311_2_alg».proof.Proof.PooledAttention
import proofs.«146277_j45724221833311_2_alg».proof.Proof.PooledBlocks
import proofs.«146277_j45724221833311_2_alg».proof.Proof.AttendArrays
import Idealize.ShloMosaic.Lib.Pipeline.Value
import Idealize.ShloMosaic.Lib.ValueIdx
import Idealize.ShloMosaic.Lib.StableHlo.Run

set_option maxRecDepth 16384

noncomputable section

namespace Cert.KernelIdeal.KernelValue

open Idealize.ShloMosaic Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The attention region finds the queries as launched. -/
theorem entry_queries (c : Dev nD) : V2 m ρ c main_arg0 = m ((c.tc : Thread nD τ).loc main_arg0) := by
  show StableHlo.after hostOps1 (W1 m ρ c) (Proc.devRef .tc main_arg0) = _
  after_results
  exact W1_of_ne m ρ c main_arg0 (by decide)

/-- It finds, in the pooling region's first output, the block means of the keys as launched. -/
theorem entry_pooledKeys (c : Dev nD) :
    V2 m ρ c main_v0_0 = Cert.PooledAttention.pooled (m ((c.tc : Thread nD τ).loc main_arg1)) := by
  show StableHlo.after hostOps1 (W1 m ρ c) (Proc.devRef .tc main_v0_0) = _
  after_results
  exact (W1_arr m ρ c 2).trans (PoolValue.pooledKeys (V0 m ρ) c)

/-- and, in its second output, the block means of the values as launched. -/
theorem entry_pooledValues (c : Dev nD) :
    V2 m ρ c main_v0_1 = Cert.PooledAttention.pooled (m ((c.tc : Thread nD τ).loc main_arg2)) := by
  show StableHlo.after hostOps1 (W1 m ρ c) (Proc.devRef .tc main_v0_1) = _
  after_results
  exact (W1_arr m ρ c 3).trans (PoolValue.pooledValues (V0 m ρ) c)

/-- The gate column it finds is the gate as launched under a trailing unit axis. -/
theorem entry_gate (c : Dev nD) :
    V2 m ρ c main_v1 = shapeCast S8x16384x1 (m ((c.tc : Thread nD τ).loc main_arg3)) shapeCasts_S8x16384_S8x16384x1 := by
  show StableHlo.after hostOps1 (W1 m ρ c) (Proc.devRef .tc main_v1) = _
  after_results
  rw [W1_of_ne m ρ c main_arg3 (by decide)]
  rfl

/-- Entry (b, t, 0) of the gate column is entry (b, t) of the gate. -/
theorem entry_gate_apply (c : Dev nD) (b : Fin 8) (t : Fin 16384) :
    V2 m ρ c main_v1 (ix3 b t (0 : Fin 1)) = m ((c.tc : Thread nD τ).loc main_arg3) (ix2 b t) := by
  rw [entry_gate]
  refine shapeCast_apply (s := S8x16384) (t := S8x16384x1) _ _ _ _ ?_
  show (S8x16384.rowMajor (ix2 b t)).val = (S8x16384x1.rowMajor (ix3 b t (0 : Fin 1))).val
  rw [Shape.rowMajor_val_two, Shape.rowMajor_val_three]
  show b.val * 16384 + t.val = (b.val * 16384 + t.val) * 1 + 0
  omega

/-- The result buffer's final contents are the specification of the four arguments as launched. -/
theorem result_value (c : Dev nD) :
    W3 m ρ c (Proc.devRef .tc main_v2)
      = Cert.PooledAttention.result (m ((c.tc : Thread nD τ).loc main_arg0)) (m ((c.tc : Thread nD τ).loc main_arg1))
          (m ((c.tc : Thread nD τ).loc main_arg2)) (m ((c.tc : Thread nD τ).loc main_arg3)) := by
  refine ((W3_arr m ρ c 4).trans (AttendValue.attended_final (V2 m ρ) c)).trans ?_
  rw [entry_queries m ρ c, entry_pooledKeys m ρ c, entry_pooledValues m ρ c]
  funext i
  obtain ⟨b, t, d, rfl⟩ : ∃ (b : Fin 8) (t : Fin 16384) (d : Fin 128), i = ix3 b t d := ⟨i 0, i 1, i 2, eq_ix3 i⟩
  show AttendValue.attendedAt _ _ _ _ b t d = Cert.PooledAttention.out _ _ _ _ b t d
  unfold AttendValue.attendedAt Cert.PooledAttention.out
  rw [entry_gate_apply m ρ c b t]
  rfl

end Cert.KernelIdeal.KernelValue

end
-- ==== Proof.ReferenceValue.lean ====
/-
  The reference program, read one operation at a time on the extended reals, computes gated attention over
  block-mean-pooled keys and values: its result array is the function of the four argument arrays that the
  specification states index by index.

  The reading goes stage by stage, each stage at explicit coordinates:
  * the reshape to [8, 256, 64, 128] followed by the sum over the 64 rows of a block and the division by 64 is the
    block mean (used once for the keys and once for the values);
  * the contraction of a query row with a pooled key, times the scale, is a score;
  * the fold of a row of 256 scores by maximum from −∞, followed by one more maximum with −∞, is the row maximum;
  * the exponential of score minus row maximum, divided by the sum of those exponentials over the row, is the weight;
  * the contraction of the weights with the pooled values, times the gate, is the result.
-/
import proofs.«146277_j45724221833311_2_alg».proof.Proof.Gen.ReferenceIdeal.Read
import proofs.«146277_j45724221833311_2_alg».proof.Proof.PooledAttention
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Cert.PooledAttention
open Idealize.ShloMosaic Idealize.ShloMosaic.ValueIdx

/-! ## Indices

The reshape [8, 16384, 128] → [8, 256, 64, 128] keeps the row-major position, so entry (b, n, r, d) of the reshaped
array is entry (b, 64·n + r, d) of the original. -/

/-- Position (b, n, r, d) of the reshaped array is position (b, 64·n + r, d) of the original. -/
theorem reshape_idx (b : Fin 8) (n : Fin 256) (r : Fin 64) (d : Fin 128) :
    idx_main_v0 (ix4 b n r d) = ix3 b (blockRow n r) d := by
  have hb := b.isLt; have hn := n.isLt; have hr := r.isLt; have hd := d.isLt
  funext a
  match a with
  | ⟨0, _⟩ =>
    refine Fin.ext ?_
    show (((b.val * 256 + n.val) * 64 + r.val) * 128 + d.val) / 2097152 = b.val
    omega
  | ⟨1, _⟩ =>
    refine Fin.ext ?_
    show (((b.val * 256 + n.val) * 64 + r.val) * 128 + d.val) / 128 % 16384 = 64 * n.val + r.val
    omega
  | ⟨2, _⟩ =>
    refine Fin.ext ?_
    show (((b.val * 256 + n.val) * 64 + r.val) * 128 + d.val) % 128 = d.val
    omega

/-- Row r of the sum over a block's rows, at (b, n, d), reads the reshaped array at (b, n, r, d). -/
theorem blockSum_idx (b : Fin 8) (n : Fin 256) (d : Fin 128) (r : Fin 64) :
    idx_main_v1 (ix3 b n d) r = ix4 b n r d := by
  funext a
  match a with
  | ⟨0, _⟩ => rfl
  | ⟨1, _⟩ => rfl
  | ⟨2, _⟩ => rfl
  | ⟨3, _⟩ => rfl

/-- Term d of the score contraction at (b, t, n) reads the queries at (b, t, d) … -/
theorem scoreL_idx (b : Fin 8) (t : Fin 16384) (n : Fin 256) (d : Fin 128) :
    lidx_main_v8 (ix3 b t n) d = ix3 b t d := by
  funext a
  match a with
  | ⟨0, _⟩ => rfl
  | ⟨1, _⟩ => rfl
  | ⟨2, _⟩ => rfl

/-- … and the pooled keys at (b, n, d). -/
theorem scoreR_idx (b : Fin 8) (t : Fin 16384) (n : Fin 256) (d : Fin 128) :
    ridx_main_v8 (ix3 b t n) d = ix3 b n d := by
  funext a
  match a with
  | ⟨0, _⟩ => rfl
  | ⟨1, _⟩ => rfl
  | ⟨2, _⟩ => rfl

/-- The row maximum broadcast back along the row is read at (b, t). -/
theorem bcastMax_idx (b : Fin 8) (t : Fin 16384) (n : Fin 256) :
    idx_main_v14 (idx_main_v15 (ix3 b t n)) = ix2 b t := by
  funext a
  match a with
  | ⟨0, _⟩ => rfl
  | ⟨1, _⟩ => rfl

/-- The row sum broadcast back along the row is read at (b, t). -/
theorem bcastSum_idx (b : Fin 8) (t : Fin 16384) (n : Fin 256) :
    idx_main_v19 (idx_main_v20 (ix3 b t n)) = ix2 b t := by
  funext a
  match a with
  | ⟨0, _⟩ => rfl
  | ⟨1, _⟩ => rfl

/-- Term n of the row sum at (b, t) reads the exponentials at (b, t, n). -/
theorem rowSum_idx (b : Fin 8) (t : Fin 16384) (n : Fin 256) :
    idx_main_v18 (ix2 b t) n = ix3 b t n := by
  funext a
  match a with
  | ⟨0, _⟩ => rfl
  | ⟨1, _⟩ => rfl
  | ⟨2, _⟩ => rfl

/-- Term n of the output contraction at (b, t, d) reads the weights at (b, t, n) … -/
theorem attnL_idx (b : Fin 8) (t : Fin 16384) (d : Fin 128) (n : Fin 256) :
    lidx_main_v22 (ix3 b t d) n = ix3 b t n := by
  funext a
  match a with
  | ⟨0, _⟩ => rfl
  | ⟨1, _⟩ => rfl
  | ⟨2, _⟩ => rfl

/-- … and the pooled values at (b, n, d). -/
theorem attnR_idx (b : Fin 8) (t : Fin 16384) (d : Fin 128) (n : Fin 256) :
    ridx_main_v22 (ix3 b t d) n = ix3 b n d := by
  funext a
  match a with
  | ⟨0, _⟩ => rfl
  | ⟨1, _⟩ => rfl
  | ⟨2, _⟩ => rfl

/-- The gate broadcast along the features is read at (b, t). -/
theorem gate_idx (b : Fin 8) (t : Fin 16384) (d : Fin 128) :
    idx_main_v23 (idx_main_v24 (ix3 b t d)) = ix2 b t := by
  funext a
  match a with
  | ⟨0, _⟩ => rfl
  | ⟨1, _⟩ => rfl

/-- Over the one reduced axis of the scores, the index (b, t) with coordinate n put back is (b, t, n). -/
theorem lift_idx (h : S8x16384x256.Reduces [2] S8x16384) (b : Fin 8) (t : Fin 16384)
    (n : Fin (S8x16384x256.size 2)) : h.lift (ix2 b t) n = ix3 b t (⟨n.val, n.isLt⟩ : Fin 256) := by
  funext c; apply Fin.ext
  fin_cases c <;> rfl

/-! ## The block mean -/

/-- The reference's pooled keys at (b, n, d): the sum over the block's 64 rows, from 0, divided by 64. -/
theorem pool_read (x : (⟨S8x16384x128, .f32⟩ : BufTy).Contents (Elt Ideal)) (b : Fin 8) (n : Fin 256) (d : Fin 128) :
    val_main_v3 (F := Ideal) x (ix3 b n d) = PooledAttention.pool x b n d := by
  rw [val_main_v3_apply, val_main_v1_apply, val_main_v2_apply, val_main_cst_0_apply, val_main_cst_apply]
  simp only [Ideal.hostDivf_def, Ideal.ofBits_def, Ideal.ofBits_zero_f32, zero_add]
  unfold PooledAttention.pool
  refine congrArg (fun s => Ideal.div s c64) (Finset.sum_congr rfl fun r _ => ?_)
  rw [val_main_v0_apply, blockSum_idx, reshape_idx]

/-- The reference pools the values by the same operations as the keys. -/
theorem pooledValues_eq (x : (⟨S8x16384x128, .f32⟩ : BufTy).Contents (Elt Ideal)) :
    val_main_v7 (F := Ideal) x = val_main_v3 (F := Ideal) x := rfl

/-- As arrays: the reference's pooled keys are the block mean. -/
theorem pooled_read (x : (⟨S8x16384x128, .f32⟩ : BufTy).Contents (Elt Ideal)) :
    val_main_v3 (F := Ideal) x = pooled x := by
  funext j
  obtain ⟨b, n, d, rfl⟩ : ∃ (b : Fin 8) (n : Fin 256) (d : Fin 128), j = ix3 b n d := ⟨j 0, j 1, j 2, eq_ix3 j⟩
  exact pool_read x b n d

/-! ## The scores -/

/-- The score of query row (b, t) against pooled key n. -/
def score (q k : (⟨3, ![8, 16384, 128]⟩ : Shape).Idx → EReal) (b : Fin 8) (t : Fin 16384) (n : Fin 256) : EReal :=
  (∑ d : Fin 128, q (ix3 b t d) * PooledAttention.pool k b n d) * cScale

/-- The reference's scaled scores at (b, t, n). -/
theorem score_read (x0 x1 : (⟨S8x16384x128, .f32⟩ : BufTy).Contents (Elt Ideal)) (b : Fin 8) (t : Fin 16384) (n : Fin 256) :
    val_main_v10 (F := Ideal) x0 x1 (ix3 b t n) = score x0 x1 b t n := by
  rw [val_main_v10_apply, val_main_v8_apply, val_main_v9_apply, val_main_cst_3_apply]
  simp only [Ideal.mulf_def, Ideal.ofBits_def]
  unfold score
  refine congrArg (fun s => s * cScale) (Finset.sum_congr rfl fun d _ => ?_)
  rw [scoreL_idx, scoreR_idx, pool_read]

/-! ## The row maximum -/

/-- −∞ is neutral for the maximum. -/
theorem max_negInf (y : EReal) : max cNegInf y = y := by
  show max (Ideal.ofBits .f32 0xFF800000#32) y = y
  simp [Ideal.ofBits, Ideal.ieee]

/-- The fold by maximum, from −∞, over axis 2 of an array of extents [8, 16384, 256], at (b, t): the maximum of row (b, t). -/
theorem rowFold_read (y : FVec Ideal S8x16384x256 .f32) (b : Fin 8) (t : Fin 16384) :
    Host.reduce (FloatOps.maximumf (F := Ideal) (φ := .f32)) y (val_main_cst_4 (F := Ideal))
        reducesTo_S8x16384x256_S8x16384_d2 h_S_ (ix2 b t)
      = rowMax (fun n => y (ix3 b t n)) := by
  have h : S8x16384x256.Reduces [2] S8x16384 := by decide
  rw [Host.reduce_eq_fold_single FloatOps.maximumf y _ reducesTo_S8x16384x256_S8x16384_d2 h h_S_]
  have hf : (y ∘ h.lift (ix2 b t)) = fun n : Fin 256 => y (ix3 b t n) :=
    funext fun n => congrArg y (lift_idx h b t n)
  unfold rowMax
  exact congrArg (fun f => Finset.fold max cNegInf f (Finset.univ : Finset (Fin 256))) hf

/-- The reference's row maximum at (b, t): the fold from −∞, and one more maximum with −∞. -/
theorem rowMax_read (x0 x1 : (⟨S8x16384x128, .f32⟩ : BufTy).Contents (Elt Ideal)) (b : Fin 8) (t : Fin 16384) :
    val_main_v13 (F := Ideal) x0 x1 (ix2 b t) = rowMax (fun n => score x0 x1 b t n) := by
  rw [val_main_v13_apply, val_main_v12_apply, val_main_cst_5_apply]
  unfold val_main_v11
  rw [rowFold_read (val_main_v10 (F := Ideal) x0 x1) b t]
  simp only [Ideal.maximumf_def, Ideal.ofBits_def]
  rw [max_negInf]
  exact congrArg rowMax (funext fun n => score_read x0 x1 b t n)

/-! ## The weights -/

/-- The reference's exponentials at (b, t, n). -/
theorem exp_read (x0 x1 : (⟨S8x16384x128, .f32⟩ : BufTy).Contents (Elt Ideal)) (b : Fin 8) (t : Fin 16384) (n : Fin 256) :
    val_main_v17 (F := Ideal) x0 x1 (ix3 b t n)
      = Ideal.exp (score x0 x1 b t n - rowMax (fun n' => score x0 x1 b t n')) := by
  rw [val_main_v17_apply, val_main_v16_apply, val_main_v15_apply, val_main_v14_apply, bcastMax_idx, rowMax_read,
    score_read]
  simp only [Ideal.hostUnary_exp_def, Ideal.subf_def]

/-- The reference's softmax weights at (b, t, n). -/
theorem weight_read (x0 x1 : (⟨S8x16384x128, .f32⟩ : BufTy).Contents (Elt Ideal)) (b : Fin 8) (t : Fin 16384) (n : Fin 256) :
    val_main_v21 (F := Ideal) x0 x1 (ix3 b t n) = weight (fun n' => score x0 x1 b t n') n := by
  rw [val_main_v21_apply, val_main_v20_apply, val_main_v19_apply, bcastSum_idx, val_main_v18_apply,
    val_main_cst_6_apply, exp_read]
  simp only [Ideal.hostDivf_def, Ideal.ofBits_def, Ideal.ofBits_zero_f32, zero_add]
  unfold weight
  refine congrArg (fun s => Ideal.div _ s) (Finset.sum_congr rfl fun k _ => ?_)
  rw [rowSum_idx, exp_read]

/-! ## The result -/

/-- The reference's result at (b, t, d). -/
theorem out_read (x0 x1 x2 : (⟨S8x16384x128, .f32⟩ : BufTy).Contents (Elt Ideal))
    (x3 : (⟨S8x16384, .f32⟩ : BufTy).Contents (Elt Ideal)) (b : Fin 8) (t : Fin 16384) (d : Fin 128) :
    val_main_v25 (F := Ideal) x0 x1 x2 x3 (ix3 b t d) = out x0 x1 x2 x3 b t d := by
  rw [val_main_v25_apply, val_main_v22_apply, val_main_v24_apply, val_main_v23_apply, gate_idx]
  simp only [Ideal.mulf_def]
  unfold out attendRow
  refine congrArg (fun s => s * x3 (ix2 b t)) (Finset.sum_congr rfl fun k _ => ?_)
  rw [attnL_idx, attnR_idx, weight_read, pooledValues_eq, pool_read]
  rfl

/-- The reference program's result, on the extended reals, is the specification. -/
theorem result_eq (x0 x1 x2 : (⟨S8x16384x128, .f32⟩ : BufTy).Contents (Elt Ideal))
    (x3 : (⟨S8x16384, .f32⟩ : BufTy).Contents (Elt Ideal)) :
    Cert.ReferenceIdeal.Read.val_main_v25 (F := Ideal) x0 x1 x2 x3 = Cert.PooledAttention.result x0 x1 x2 x3 := by
  funext i
  obtain ⟨b, t, d, rfl⟩ : ∃ (b : Fin 8) (t : Fin 16384) (d : Fin 128), i = ix3 b t d := ⟨i 0, i 1, i 2, eq_ix3 i⟩
  exact out_read x0 x1 x2 x3 b t d

end Cert.ReferenceIdeal.RefValue

end
-- ==== Proof.lean ====
/- The five claims of this certificate, assembled.

   The kernel program pools keys and values by blocks of 64 rows in a first region, re-lays the gate as a column on the
   host, and in a second region attends every block of 2048 query rows to the 256 pooled rows of its batch, gating the
   result. Read on the extended reals, its result array is one function of the four argument arrays
   (Proof/PooledAttention.lean: `result`), and so is the reference's: the reference's composed term is that function
   operation by operation (Proof/ReferenceValue.lean), and the kernel's result buffer ends holding it
   (Proof/KernelValue.lean over the run of Proof/RunValue.lean; the pooling region in Proof/PooledBlocks.lean, the
   attention region in Proof/AttendBlock.lean and Proof/AttendArrays.lean). No law beyond re-indexing finite sums joins the
   two sides, so the precondition is never opened. The three frames are the generated ones (the reference's is its
   generated run with the result dropped); the idealization rewrote nothing, so `preserves` is `True`. -/
import proofs.«146277_j45724221833311_2_alg».proof.Defs
import proofs.«146277_j45724221833311_2_alg».proof.Proof.Gen.Kernel
import proofs.«146277_j45724221833311_2_alg».proof.Proof.Gen.Kernel.Skeleton
import proofs.«146277_j45724221833311_2_alg».proof.Proof.Gen.Kernel.Launch
import proofs.«146277_j45724221833311_2_alg».proof.Proof.Gen.Kernel.Points
import proofs.«146277_j45724221833311_2_alg».proof.Proof.Gen.Kernel.Frame
import proofs.«146277_j45724221833311_2_alg».proof.Proof.Gen.KernelIdeal
import proofs.«146277_j45724221833311_2_alg».proof.Proof.Gen.KernelIdeal.Skeleton
import proofs.«146277_j45724221833311_2_alg».proof.Proof.Gen.KernelIdeal.Launch
import proofs.«146277_j45724221833311_2_alg».proof.Proof.Gen.KernelIdeal.Points
import proofs.«146277_j45724221833311_2_alg».proof.Proof.Gen.KernelIdeal.Frame
import proofs.«146277_j45724221833311_2_alg».proof.Proof.Gen.ReferenceIdeal
import proofs.«146277_j45724221833311_2_alg».proof.Proof.Gen.Pre_finite_inputs
import proofs.«146277_j45724221833311_2_alg».proof.Proof.Gen.ReferenceIdeal.Run
import proofs.«146277_j45724221833311_2_alg».proof.Proof.Gen.ReferenceIdeal.Read
import Idealize.ShloMosaic.Adequacy
import Idealize.ShloMosaic.Init

import proofs.«146277_j45724221833311_2_alg».proof.Proof.PooledAttention
import proofs.«146277_j45724221833311_2_alg».proof.Proof.RunValue
import proofs.«146277_j45724221833311_2_alg».proof.Proof.KernelValue
import proofs.«146277_j45724221833311_2_alg».proof.Proof.ReferenceValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's `result` of the (agreeing) arguments in their result buffers. -/
theorem algebraic : Cert.algebraic_KernelIdeal_ReferenceIdeal := by
  intro m ρ m' ρ' _ hagree
  refine ⟨fun c => Cert.PooledAttention.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.result_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
